-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x640000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S5000x128 : Shape := ⟨2, ![5000, 128]⟩
abbrev S690000x128 : Shape := ⟨2, ![690000, 128]⟩
abbrev S1x128 : Shape := ⟨2, ![1, 128]⟩
abbrev S50000x40 : Shape := ⟨2, ![50000, 40]⟩
abbrev S5000x40 : Shape := ⟨2, ![5000, 40]⟩
abbrev S690000x40 : Shape := ⟨2, ![690000, 40]⟩
abbrev S1x40 : Shape := ⟨2, ![1, 40]⟩

abbrev nBuf : Space → Nat
  | .hbm => 82
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x640000, .i32⟩
  | .hbm, ⟨8, _⟩ => ⟨S640000, .i32⟩
  | .hbm, ⟨9, _⟩ => ⟨S690000, .i32⟩
  | .hbm, ⟨10, _⟩ => ⟨S1x640000, .i32⟩
  | .hbm, ⟨11, _⟩ => ⟨S640000, .i32⟩
  | .hbm, ⟨12, _⟩ => ⟨S690000, .i32⟩
  | .hbm, ⟨13, _⟩ => ⟨S_, .f32⟩
  | .hbm, ⟨14, _⟩ => ⟨S690000, .f32⟩
  | .hbm, ⟨15, _⟩ => ⟨S_, .f32⟩
  | .hbm, ⟨16, _⟩ => ⟨S50000, .f32⟩
  | .hbm, ⟨17, _⟩ => ⟨S690000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S690000, .i32⟩
  | .hbm, ⟨29, _⟩ => ⟨S690000, .i1⟩
  | .hbm, ⟨30, _⟩ => ⟨S_, .i32⟩
  | .hbm, ⟨31, _⟩ => ⟨S690000, .i32⟩
  | .hbm, ⟨32, _⟩ => ⟨S690000, .i32⟩
  | .hbm, ⟨33, _⟩ => ⟨S690000, .i32⟩
  | .hbm, ⟨34, _⟩ => ⟨S690000x1, .i32⟩
  | .hbm, ⟨35, _⟩ => ⟨S690000, .f32⟩
  | .hbm, ⟨36, _⟩ => ⟨S_, .i32⟩
  | .hbm, ⟨37, _⟩ => ⟨S690000, .i32⟩
  | .hbm, ⟨38, _⟩ => ⟨S690000, .i1⟩
  | .hbm, ⟨39, _⟩ => ⟨S_, .i32⟩
  | .hbm, ⟨40, _⟩ => ⟨S690000, .i32⟩
  | .hbm, ⟨41, _⟩ => ⟨S690000, .i32⟩
  | .hbm, ⟨42, _⟩ => ⟨S690000, .i32⟩
  | .hbm, ⟨43, _⟩ => ⟨S690000x1, .i32⟩
  | .hbm, ⟨44, _⟩ => ⟨S690000, .f32⟩
  | .hbm, ⟨45, _⟩ => ⟨S690000, .f32⟩
  | .hbm, ⟨46, _⟩ => ⟨S50000x128, .f32⟩
  | .hbm, ⟨47, _⟩ => ⟨S_, .i32⟩
  | .hbm, ⟨48, _⟩ => ⟨S690000, .i32⟩
  | .hbm, ⟨49, _⟩ => ⟨S690000, .i1⟩
  | .hbm, ⟨50, _⟩ => ⟨S_, .i32⟩
  | .hbm, ⟨51, _⟩ => ⟨S690000, .i32⟩
  | .hbm, ⟨52, _⟩ => ⟨S690000, .i32⟩
  | .hbm, ⟨53, _⟩ => ⟨S690000, .i32⟩
  | .hbm, ⟨54, _⟩ => ⟨S690000x1, .i32⟩
  | .hbm, ⟨55, _⟩ => ⟨S690000x128, .f32⟩
  | .hbm, ⟨56, _⟩ => ⟨S690000x1, .f32⟩
  | .hbm, ⟨57, _⟩ => ⟨S690000x128, .f32⟩
  | .hbm, ⟨58, _⟩ => ⟨S690000x128, .f32⟩
  | .hbm, ⟨59, _⟩ => ⟨S_, .f32⟩
  | .hbm, ⟨60, _⟩ => ⟨S50000x128, .f32⟩
  | .hbm, ⟨61, _⟩ => ⟨S690000x1, .i32⟩
  | .hbm, ⟨62, _⟩ => ⟨S50000x128, .f32⟩
  | .hbm, ⟨63, _⟩ => ⟨S50000x128, .f32⟩
  | .hbm, ⟨64, _⟩ => ⟨S50000x40, .f32⟩
  | .hbm, ⟨65, _⟩ => ⟨S_, .i32⟩
  | .hbm, ⟨66, _⟩ => ⟨S690000, .i32⟩
  | .hbm, ⟨67, _⟩ => ⟨S690000, .i1⟩
  | .hbm, ⟨68, _⟩ => ⟨S_, .i32⟩
  | .hbm, ⟨69, _⟩ => ⟨S690000, .i32⟩
  | .hbm, ⟨70, _⟩ => ⟨S690000, .i32⟩
  | .hbm, ⟨71, _⟩ => ⟨S690000, .i32⟩
  | .hbm, ⟨72, _⟩ => ⟨S690000x1, .i32⟩
  | .hbm, ⟨73, _⟩ => ⟨S690000x40, .f32⟩
  | .hbm, ⟨74, _⟩ => ⟨S690000x1, .f32⟩
  | .hbm, ⟨75, _⟩ => ⟨S690000x40, .f32⟩
  | .hbm, ⟨76, _⟩ => ⟨S690000x40, .f32⟩
  | .hbm, ⟨77, _⟩ => ⟨S_, .f32⟩
  | .hbm, ⟨78, _⟩ => ⟨S50000x40, .f32⟩
  | .hbm, ⟨79, _⟩ => ⟨S690000x1, .i32⟩
  | .hbm, ⟨80, _⟩ => ⟨S50000x40, .f32⟩
  | .hbm, ⟨81, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S40, .f32⟩
  | .local _ .vmem, ⟨18, _⟩ => ⟨S5000x40, .f32⟩
  | .local _ .vmem, ⟨19, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S690000x1_S690000x40_0_1 : S690000x1.BroadcastsInDim S690000x40 (![0, 1] : Fin 2 → Fin S690000x40.rank)
  bcast_S_S50000x40 : S_.BroadcastsInDim S50000x40 (![] : Fin 0 → Fin S50000x40.rank)
  shapeCasts_S5000x40_S5000x40 : S5000x40.ShapeCasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S5000x128_S128x128_S5000x128_1_0_0_1_n_n_wf : DotDims.WF S5000x128 S128x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S5000x128_S128x40_S5000x40_1_0_0_1_n_n_wf : DotDims.WF S5000x128 S128x40 S5000x40 [1] [0] [0] [1] [] []
  gather_S50000x40_S690000x1_S690000x40_1_0_n_n_0_1_140_wf : GatherDims.WF S50000x40 S690000x1 S690000x40 [1] [0] [] [0] [] 1 ![1, 40]
  scatter_S50000x40_S690000x1_S690000x40_1_0_0_1_wf : ScatterDims.WF S50000x40 S690000x1 S690000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S40.size a ≤ S40.size a
  hwx3_1 : ∀ i : grid3.Coords, EltTy.bits .f32 = 32 ∨ (Rect.block (s := S40) S40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S690000x1_S690000x40_1_0_n_n_0_1_140 : GatherDims S50000x40 S690000x1 S690000x40 where
  offsetDims := [1]
  collapsedSliceDims := [0]
  operandBatchingDims := []
  startIndicesBatchingDims := []
  startIndexMap := [0]
  indexVectorDim := 1
  sliceSizes := ![1, 40]
  wf := gather_S50000x40_S690000x1_S690000x40_1_0_n_n_0_1_140_wf
def scatter_S50000x40_S690000x1_S690000x40_1_0_0_1 : ScatterDims S50000x40 S690000x1 S690000x40 where
  updateWindowDims := [1]
  insertedWindowDims := [0]
  scatterDimsToOperandDims := [0]
  indexVectorDim := 1
  wf := scatter_S50000x40_S690000x1_S690000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S50000x40 : Shape := ⟨2, ![50000, 40]⟩
abbrev S690000x40 : Shape := ⟨2, ![690000, 40]⟩
abbrev S1x40 : Shape := ⟨2, ![1, 40]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x640000, .i32⟩
  | .hbm, ⟨8, _⟩ => ⟨S640000, .i32⟩
  | .hbm, ⟨9, _⟩ => ⟨S690000, .i32⟩
  | .hbm, ⟨10, _⟩ => ⟨S1x640000, .i32⟩
  | .hbm, ⟨11, _⟩ => ⟨S640000, .i32⟩
  | .hbm, ⟨12, _⟩ => ⟨S690000, .i32⟩
  | .hbm, ⟨13, _⟩ => ⟨S_, .f32⟩
  | .hbm, ⟨14, _⟩ => ⟨S690000, .f32⟩
  | .hbm, ⟨15, _⟩ => ⟨S_, .f32⟩
  | .hbm, ⟨16, _⟩ => ⟨S50000, .f32⟩
  | .hbm, ⟨17, _⟩ => ⟨S690000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S690000, .i32⟩
  | .hbm, ⟨29, _⟩ => ⟨S690000, .i1⟩
  | .hbm, ⟨30, _⟩ => ⟨S_, .i32⟩
  | .hbm, ⟨31, _⟩ => ⟨S690000, .i32⟩
  | .hbm, ⟨32, _⟩ => ⟨S690000, .i32⟩
  | .hbm, ⟨33, _⟩ => ⟨S690000, .i32⟩
  | .hbm, ⟨34, _⟩ => ⟨S690000x1, .i32⟩
  | .hbm, ⟨35, _⟩ => ⟨S690000, .f32⟩
  | .hbm, ⟨36, _⟩ => ⟨S_, .i32⟩
  | .hbm, ⟨37, _⟩ => ⟨S690000, .i32⟩
  | .hbm, ⟨38, _⟩ => ⟨S690000, .i1⟩
  | .hbm, ⟨39, _⟩ => ⟨S_, .i32⟩
  | .hbm, ⟨40, _⟩ => ⟨S690000, .i32⟩
  | .hbm, ⟨41, _⟩ => ⟨S690000, .i32⟩
  | .hbm, ⟨42, _⟩ => ⟨S690000, .i32⟩
  | .hbm, ⟨43, _⟩ => ⟨S690000x1, .i32⟩
  | .hbm, ⟨44, _⟩ => ⟨S690000, .f32⟩
  | .hbm, ⟨45, _⟩ => ⟨S690000, .f32⟩
  | .hbm, ⟨46, _⟩ => ⟨S50000x128, .f32⟩
  | .hbm, ⟨47, _⟩ => ⟨S_, .i32⟩
  | .hbm, ⟨48, _⟩ => ⟨S690000, .i32⟩
  | .hbm, ⟨49, _⟩ => ⟨S690000, .i1⟩
  | .hbm, ⟨50, _⟩ => ⟨S_, .i32⟩
  | .hbm, ⟨51, _⟩ => ⟨S690000, .i32⟩
  | .hbm, ⟨52, _⟩ => ⟨S690000, .i32⟩
  | .hbm, ⟨53, _⟩ => ⟨S690000, .i32⟩
  | .hbm, ⟨54, _⟩ => ⟨S690000x1, .i32⟩
  | .hbm, ⟨55, _⟩ => ⟨S690000x128, .f32⟩
  | .hbm, ⟨56, _⟩ => ⟨S690000x1, .f32⟩
  | .hbm, ⟨57, _⟩ => ⟨S690000x128, .f32⟩
  | .hbm, ⟨58, _⟩ => ⟨S690000x128, .f32⟩
  | .hbm, ⟨59, _⟩ => ⟨S_, .f32⟩
  | .hbm, ⟨60, _⟩ => ⟨S50000x128, .f32⟩
  | .hbm, ⟨61, _⟩ => ⟨S690000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S690000, .f32⟩
  | .hbm, ⟨71, _⟩ => ⟨S_, .f32⟩
  | .hbm, ⟨72, _⟩ => ⟨S50000, .f32⟩
  | .hbm, ⟨73, _⟩ => ⟨S690000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .i1⟩
  | .hbm, ⟨78, _⟩ => ⟨S50000, .f32⟩
  | .hbm, ⟨79, _⟩ => ⟨S_, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S_, .i32⟩
  | .hbm, ⟨84, _⟩ => ⟨S690000, .i32⟩
  | .hbm, ⟨85, _⟩ => ⟨S690000, .i1⟩
  | .hbm, ⟨86, _⟩ => ⟨S_, .i32⟩
  | .hbm, ⟨87, _⟩ => ⟨S690000, .i32⟩
  | .hbm, ⟨88, _⟩ => ⟨S690000, .i32⟩
  | .hbm, ⟨89, _⟩ => ⟨S690000, .i32⟩
  | .hbm, ⟨90, _⟩ => ⟨S690000x1, .i32⟩
  | .hbm, ⟨91, _⟩ => ⟨S690000, .f32⟩
  | .hbm, ⟨92, _⟩ => ⟨S_, .i32⟩
  | .hbm, ⟨93, _⟩ => ⟨S690000, .i32⟩
  | .hbm, ⟨94, _⟩ => ⟨S690000, .i1⟩
  | .hbm, ⟨95, _⟩ => ⟨S_, .i32⟩
  | .hbm, ⟨96, _⟩ => ⟨S690000, .i32⟩
  | .hbm, ⟨97, _⟩ => ⟨S690000, .i32⟩
  | .hbm, ⟨98, _⟩ => ⟨S690000, .i32⟩
  | .hbm, ⟨99, _⟩ => ⟨S690000x1, .i32⟩
  | .hbm, ⟨100, _⟩ => ⟨S690000, .f32⟩
  | .hbm, ⟨101, _⟩ => ⟨S690000, .f32⟩
  | .hbm, ⟨102, _⟩ => ⟨S50000x40, .f32⟩
  | .hbm, ⟨103, _⟩ => ⟨S_, .i32⟩
  | .hbm, ⟨104, _⟩ => ⟨S690000, .i32⟩
  | .hbm, ⟨105, _⟩ => ⟨S690000, .i1⟩
  | .hbm, ⟨106, _⟩ => ⟨S_, .i32⟩
  | .hbm, ⟨107, _⟩ => ⟨S690000, .i32⟩
  | .hbm, ⟨108, _⟩ => ⟨S690000, .i32⟩
  | .hbm, ⟨109, _⟩ => ⟨S690000, .i32⟩
  | .hbm, ⟨110, _⟩ => ⟨S690000x1, .i32⟩
  | .hbm, ⟨111, _⟩ => ⟨S690000x40, .f32⟩
  | .hbm, ⟨112, _⟩ => ⟨S690000x1, .f32⟩
  | .hbm, ⟨113, _⟩ => ⟨S690000x40, .f32⟩
  | .hbm, ⟨114, _⟩ => ⟨S690000x40, .f32⟩
  | .hbm, ⟨115, _⟩ => ⟨S_, .f32⟩
  | .hbm, ⟨116, _⟩ => ⟨S50000x40, .f32⟩
  | .hbm, ⟨117, _⟩ => ⟨S690000x1, .i32⟩
  | .hbm, ⟨118, _⟩ => ⟨S50000x40, .f32⟩
  | .hbm, ⟨119, _⟩ => ⟨S1x40, .f32⟩
  | .hbm, ⟨120, _⟩ => ⟨S50000x40, .f32⟩
  | .hbm, ⟨121, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S690000x1_S690000x40_0_1 : S690000x1.BroadcastsInDim S690000x40 (![0, 1] : Fin 2 → Fin S690000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x128_S50000x128_1_0_0_1_n_n_wf : DotDims.WF S50000x128 S128x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x40_S50000x40_1_0_0_1_n_n_wf : DotDims.WF S50000x128 S128x40 S50000x40 [1] [0] [0] [1] [] []
  gather_S50000x40_S690000x1_S690000x40_1_0_n_n_0_1_140_wf : GatherDims.WF S50000x40 S690000x1 S690000x40 [1] [0] [] [0] [] 1 ![1, 40]
  scatter_S50000x40_S690000x1_S690000x40_1_0_0_1_wf : ScatterDims.WF S50000x40 S690000x1 S690000x40 [1] [0] [0] 1

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S690000x1_S690000x40_1_0_n_n_0_1_140 : GatherDims S50000x40 S690000x1 S690000x40 where
  offsetDims := [1]
  collapsedSliceDims := [0]
  operandBatchingDims := []
  startIndicesBatchingDims := []
  startIndexMap := [0]
  indexVectorDim := 1
  sliceSizes := ![1, 40]
  wf := gather_S50000x40_S690000x1_S690000x40_1_0_n_n_0_1_140_wf
def scatter_S50000x40_S690000x1_S690000x40_1_0_0_1 : ScatterDims S50000x40 S690000x1 S690000x40 where
  updateWindowDims := [1]
  insertedWindowDims := [0]
  scatterDimsToOperandDims := [0]
  indexVectorDim := 1
  wf := scatter_S50000x40_S690000x1_S690000x40_1_0_0_1_wf

class Facts : Prop extends Facts₀ where

variable [Facts]
-- ==== Proof.Spec.lean ====
/-
  The graph convolution both programs compute, as ONE function of the argument arrays.

  The edge list `e` (two rows of 640000 node numbers) is extended by one self loop per node: `srcOf e` and `dstOf e` are
  its two rows followed by 0 … 49999. A node number is used as a row index after negative values are wrapped by the
  node count (`wrap`) and turned into a column of start indices (`col`). The degree of a node counts the edges that end
  in it (`degOf`: ones scattered onto zeros), its inverse square root is kept where the degree is positive and replaced
  by zero elsewhere (`dinvOf`), and an edge's weight is the product of that number at its two ends (`normOf`).
  One aggregation step (`aggr128`, `aggr40`) gathers the rows of a node-feature matrix at the edges' sources, scales
  each gathered row by its edge's weight, and adds the rows into the edges' targets, starting from zeros.
  A layer is a product with a weight matrix (`mm128`, `mm40`: entry (r, j) is the sum over k of x[r, k] · w[k, j], on
  the extended reals), an aggregation step, and a bias row added to every row; the first layer is followed by a
  maximum with zero (`hidden`), the second is not (`withBias40`). `gcnOut` is the two layers in a row.
  The gather / scatter steps are never opened: both programs apply them, as the same functions, to values this
  file shows equal.
-/
import proofs.«100879_j5342939316758_1_alg».proof.Proof.Gen.KernelIdeal
import Idealize.ShloMosaic.PureOps.Ideal
import Idealize.ShloMosaic.Lib.ValueIdx

noncomputable section

open scoped BigOperators

namespace Cert.Gcn

open Idealize.ShloMosaic Cert.KernelIdeal Cert.KernelIdeal.Facts₀

variable {F : FTy → Type} [FloatOps F]

/-! ## The edges with self loops, and node numbers as row indices -/

/-- Row 0 of the edge list, then every node's own number: the sources. -/
def srcOf (e : IVec S2x640000 32) : IVec S690000 32 :=
  concatenate S690000 0 [⟨S640000, shapeCast S640000 (extractStridedSlice S1x640000 ![0, 0] e slices_S2x640000_S1x640000_0_0) shapeCasts_S1x640000_S640000⟩,
    ⟨S50000, iotaInDim S50000 32 0⟩] concatenates_S640000_S50000_S690000_d0

/-- Row 1 of the edge list, then every node's own number: the targets. -/
def dstOf (e : IVec S2x640000 32) : IVec S690000 32 :=
  concatenate S690000 0 [⟨S640000, shapeCast S640000 (extractStridedSlice S1x640000 ![1, 0] e slices_S2x640000_S1x640000_1_0) shapeCasts_S1x640000_S640000⟩,
    ⟨S50000, iotaInDim S50000 32 0⟩] concatenates_S640000_S50000_S690000_d0

/-- A negative node number counts from the end: the node count is added to it. -/
def wrap (s : IVec S690000 32) : IVec S690000 32 :=
  select (cmpi .slt s (broadcastInDim S690000 ![] bcast_S_S690000 (constantI S_ 32 0#32)))
    (addi s (broadcastInDim S690000 ![] bcast_S_S690000 (constantI S_ 32 50000#32))) s

/-- A list of numbers as a one-column array (of start indices, or of per-edge factors). -/
def col {α : Type} (s : S690000.Idx → α) : S690000x1.Idx → α :=
  broadcastInDim S690000x1 ![0] bcast_S690000_S690000x1_0 s

/-! ## The edge weights -/

/-- How many edges (self loops included) end in each node. -/
def degOf (dst : IVec S690000 32) : FVec F S50000 .f32 :=
  Host.scatterAdd scatter_S50000_S690000x1_S690000_n_0_0_1
    (broadcastInDim S50000 ![] bcast_S_S50000 (constant S_ .f32 0x00000000#32)) (col dst)
    (broadcastInDim S690000 ![] bcast_S_S690000 (constant S_ .f32 0x3F800000#32))

/-- The degree's inverse square root where the degree is positive, zero elsewhere. -/
def dinvOf (dst : IVec S690000 32) : FVec F S50000 .f32 :=
  select (cmpf (F := F) .ogt (degOf dst) (broadcastInDim S50000 ![] bcast_S_S50000 (constant S_ .f32 0x00000000#32)))
    (Host.rsqrt (degOf dst)) (broadcastInDim S50000 ![] bcast_S_S50000 (id (constant S_ .f32 0x00000000#32)))

/-- An edge's weight: that number at its source times that number at its target. -/
def normOf (src dst : IVec S690000 32) : FVec F S690000 .f32 :=
  mulf (Host.gather gather_S50000_S690000x1_S690000_n_0_n_n_0_1_1 (dinvOf (F := F) dst) (col (wrap src)))
    (Host.gather gather_S50000_S690000x1_S690000_n_0_n_n_0_1_1 (dinvOf (F := F) dst) (col (wrap dst)))

/-! ## One aggregation step -/

/-- Rows of `xw` gathered at the sources, scaled by the edge weights, added into the targets (128 features). -/
def aggr128 (xw : FVec F S50000x128 .f32) (src dst : IVec S690000 32) (nrm : FVec F S690000 .f32) : FVec F S50000x128 .f32 :=
  Host.scatterAdd scatter_S50000x128_S690000x1_S690000x128_1_0_0_1
    (broadcastInDim S50000x128 ![] bcast_S_S50000x128 (constant S_ .f32 0x00000000#32)) (col dst)
    (mulf (Host.gather gather_S50000x128_S690000x1_S690000x128_1_0_n_n_0_1_1128 xw (col (wrap src)))
      (broadcastInDim S690000x128 ![0, 1] bcast_S690000x1_S690000x128_0_1 (col nrm)))

/-- The same with 40 features. -/
def aggr40 (xw : FVec F S50000x40 .f32) (src dst : IVec S690000 32) (nrm : FVec F S690000 .f32) : FVec F S50000x40 .f32 :=
  Host.scatterAdd scatter_S50000x40_S690000x1_S690000x40_1_0_0_1
    (broadcastInDim S50000x40 ![] bcast_S_S50000x40 (constant S_ .f32 0x00000000#32)) (col dst)
    (mulf (Host.gather gather_S50000x40_S690000x1_S690000x40_1_0_n_n_0_1_140 xw (col (wrap src)))
      (broadcastInDim S690000x40 ![0, 1] bcast_S690000x1_S690000x40_0_1 (col nrm)))

/-! ## The dense parts, index by index -/

/-- Position (row of `i`, k) of a [50000, 128] array. -/
abbrev rowAt (i : S50000x128.Idx) (k : Fin 128) : S50000x128.Idx := fun a => match a with
  | ⟨0, _⟩ => ⟨(i 0).val, (i 0).isLt⟩
  | ⟨1, _⟩ => ⟨k.val, k.isLt⟩
/-- Position (k, column of `i`) of a [128, 128] weight matrix. -/
abbrev colAt (i : S50000x128.Idx) (k : Fin 128) : S128x128.Idx := fun a => match a with
  | ⟨0, _⟩ => ⟨k.val, k.isLt⟩
  | ⟨1, _⟩ => ⟨(i 1).val, (i 1).isLt⟩
/-- Position (row of `i`, k) of a [50000, 128] array, for an index `i` of a [50000, 40] array. -/
abbrev rowAt40 (i : S50000x40.Idx) (k : Fin 128) : S50000x128.Idx := fun a => match a with
  | ⟨0, _⟩ => ⟨(i 0).val, (i 0).isLt⟩
  | ⟨1, _⟩ => ⟨k.val, k.isLt⟩
/-- Position (k, column of `i`) of a [128, 40] weight matrix. -/
abbrev colAt40 (i : S50000x40.Idx) (k : Fin 128) : S128x40.Idx := fun a => match a with
  | ⟨0, _⟩ => ⟨k.val, k.isLt⟩
  | ⟨1, _⟩ => ⟨(i 1).val, (i 1).isLt⟩
/-- The bias entry under column of `i` (128 features). -/
abbrev biasAt (i : S50000x128.Idx) : S128.Idx := fun a => match a with
  | ⟨0, _⟩ => ⟨(i 1).val, (i 1).isLt⟩
/-- The bias entry under column of `i` (40 features). -/
abbrev biasAt40 (i : S50000x40.Idx) : S40.Idx := fun a => match a with
  | ⟨0, _⟩ => ⟨(i 1).val, (i 1).isLt⟩

/-- `x · w` for a [50000, 128] by [128, 128] pair: entry `i` is the sum over k of x[row, k] · w[k, column]. -/
def mm128 (x : FVec Ideal S50000x128 .f32) (w : FVec Ideal S128x128 .f32) : FVec Ideal S50000x128 .f32 :=
  fun i => ∑ k : Fin 128, x (rowAt i k) * w (colAt i k)

/-- `x · w` for a [50000, 128] by [128, 40] pair. -/
def mm40 (x : FVec Ideal S50000x128 .f32) (w : FVec Ideal S128x40 .f32) : FVec Ideal S50000x40 .f32 :=
  fun i => ∑ k : Fin 128, x (rowAt40 i k) * w (colAt40 i k)

/-- The bias row added to every row, then the maximum with zero. -/
def hidden (a : FVec F S50000x128 .f32) (b : FVec F S128 .f32) : FVec F S50000x128 .f32 :=
  fun i => FloatOps.maximumf (FloatOps.addf (a i) (b (biasAt i))) (FloatOps.ofBits .f32 0x00000000#32)

/-- The bias row added to every row. -/
def withBias40 (a : FVec F S50000x40 .f32) (b : FVec F S40 .f32) : FVec F S50000x40 .f32 :=
  fun i => FloatOps.addf (a i) (b (biasAt40 i))

/-- Two graph-convolution layers: the function both programs compute of their six arguments. -/
def gcnOut (x : FVec Ideal S50000x128 .f32) (e : IVec S2x640000 32) (w1 : FVec Ideal S128x128 .f32) (b1 : FVec Ideal S128 .f32)
    (w2 : FVec Ideal S128x40 .f32) (b2 : FVec Ideal S40 .f32) : FVec Ideal S50000x40 .f32 :=
  withBias40 (aggr40 (mm40 (hidden (aggr128 (mm128 x w1) (srcOf e) (dstOf e) (normOf (srcOf e) (dstOf e))) b1) w2)
    (srcOf e) (dstOf e) (normOf (srcOf e) (dstOf e))) b2

end Cert.Gcn

end
-- ==== Proof.RefValue.lean ====
/-
  The idealized reference's result as the same function of its arguments. Its run's term applies, in order: the host's
  product of the node features and the first weight matrix, the first aggregation, the first bias and a maximum with
  zero, the host's product with the second weight matrix, the second aggregation (over edge lists and weights it computes
  a second time, by the same operations of the same edge-list argument), and the second bias. On the extended reals a
  host product's entry is the same sum over k as `mm128` / `mm40`; a bias broadcast down the rows reads the bias entry of
  the column; the splat of zero reads zero. So the term is `gcnOut` of the six arguments.
-/
import proofs.«100879_j5342939316758_1_alg».proof.Proof.RefRun
import proofs.«100879_j5342939316758_1_alg».proof.Proof.Spec
import Idealize.ShloMosaic.Lib.Pipeline.Value
import Idealize.ShloMosaic.Lib.ValueIdx
import Idealize.ShloMosaic.PureOps.Ideal.Laws

noncomputable section

open scoped BigOperators

namespace Cert.Gcn.RefSide

open Idealize.ShloMosaic Idealize.ShloMosaic.TcCoe Idealize.SL.Sem
open Cert.ReferenceIdeal Cert.ReferenceIdeal.Facts₀

/-! ## The two host products -/

/-- The first product's dimension numbers. -/
abbrev d1 := dot_S50000x128_S128x128_S50000x128_1_0_0_1_n_n
/-- The second product's dimension numbers. -/
abbrev d2 := dot_S50000x128_S128x40_S50000x40_1_0_0_1_n_n

theorem d1_lhs0 (i : S50000x128.Idx) (q : d1.contr.Idx) : (d1.lhsIdx i q 0).val = (i 0).val := by
  unfold DotDims.lhsIdx
  rw [dif_neg (show ¬(0 : Fin S50000x128.rank) ∈ d1.lhsBatch by decide), dif_pos (show (0 : Fin S50000x128.rank) ∈ d1.lhsNonContracting by decide)]
  rfl
theorem d1_lhs1 (i : S50000x128.Idx) (q : d1.contr.Idx) : (d1.lhsIdx i q 1).val = (q ⟨0, by decide⟩).val :=
  d1.lhsIdx_val_of_single rfl i q
theorem d1_rhs0 (i : S50000x128.Idx) (q : d1.contr.Idx) : (d1.rhsIdx i q 0).val = (q ⟨0, by decide⟩).val :=
  d1.rhsIdx_val_of_single rfl i q
theorem d1_rhs1 (i : S50000x128.Idx) (q : d1.contr.Idx) : (d1.rhsIdx i q 1).val = (i 1).val := by
  unfold DotDims.rhsIdx
  rw [dif_neg (show ¬(1 : Fin S128x128.rank) ∈ d1.rhsBatch by decide), dif_pos (show (1 : Fin S128x128.rank) ∈ d1.rhsNonContracting by decide)]
  rfl

/-- The host's first product is `mm128`. -/
theorem dot1_eq (x : FVec Ideal S50000x128 .f32) (w : FVec Ideal S128x128 .f32) :
    Host.dotGeneral d1 none x w = mm128 x w := by
  funext i
  simp only [Host.dotGeneral]
  rw [Ideal.dotGeneral_apply, ← Equiv.sum_comp (ValueIdx.contrEquiv1 d1 128 rfl rfl).symm]
  unfold mm128
  refine Finset.sum_congr rfl fun k _ => ?_
  have hk := ValueIdx.contrEquiv1_symm_val d1 128 rfl rfl k
  have el : d1.lhsIdx i ((ValueIdx.contrEquiv1 d1 128 rfl rfl).symm k) = rowAt i k := funext fun a => Fin.ext (by
    match a with
    | ⟨0, _⟩ => exact d1_lhs0 _ _
    | ⟨1, _⟩ => exact (d1_lhs1 _ _).trans hk)
  have er : d1.rhsIdx i ((ValueIdx.contrEquiv1 d1 128 rfl rfl).symm k) = colAt i k := funext fun a => Fin.ext (by
    match a with
    | ⟨0, _⟩ => exact (d1_rhs0 _ _).trans hk
    | ⟨1, _⟩ => exact d1_rhs1 _ _)
  rw [el, er]

theorem d2_lhs0 (i : S50000x40.Idx) (q : d2.contr.Idx) : (d2.lhsIdx i q 0).val = (i 0).val := by
  unfold DotDims.lhsIdx
  rw [dif_neg (show ¬(0 : Fin S50000x128.rank) ∈ d2.lhsBatch by decide), dif_pos (show (0 : Fin S50000x128.rank) ∈ d2.lhsNonContracting by decide)]
  rfl
theorem d2_lhs1 (i : S50000x40.Idx) (q : d2.contr.Idx) : (d2.lhsIdx i q 1).val = (q ⟨0, by decide⟩).val :=
  d2.lhsIdx_val_of_single rfl i q
theorem d2_rhs0 (i : S50000x40.Idx) (q : d2.contr.Idx) : (d2.rhsIdx i q 0).val = (q ⟨0, by decide⟩).val :=
  d2.rhsIdx_val_of_single rfl i q
theorem d2_rhs1 (i : S50000x40.Idx) (q : d2.contr.Idx) : (d2.rhsIdx i q 1).val = (i 1).val := by
  unfold DotDims.rhsIdx
  rw [dif_neg (show ¬(1 : Fin S128x40.rank) ∈ d2.rhsBatch by decide), dif_pos (show (1 : Fin S128x40.rank) ∈ d2.rhsNonContracting by decide)]
  rfl

/-- The host's second product is `mm40`. -/
theorem dot2_eq (x : FVec Ideal S50000x128 .f32) (w : FVec Ideal S128x40 .f32) :
    Host.dotGeneral d2 none x w = mm40 x w := by
  funext i
  simp only [Host.dotGeneral]
  rw [Ideal.dotGeneral_apply, ← Equiv.sum_comp (ValueIdx.contrEquiv1 d2 128 rfl rfl).symm]
  unfold mm40
  refine Finset.sum_congr rfl fun k _ => ?_
  have hk := ValueIdx.contrEquiv1_symm_val d2 128 rfl rfl k
  have el : d2.lhsIdx i ((ValueIdx.contrEquiv1 d2 128 rfl rfl).symm k) = rowAt40 i k := funext fun a => Fin.ext (by
    match a with
    | ⟨0, _⟩ => exact d2_lhs0 _ _
    | ⟨1, _⟩ => exact (d2_lhs1 _ _).trans hk)
  have er : d2.rhsIdx i ((ValueIdx.contrEquiv1 d2 128 rfl rfl).symm k) = colAt40 i k := funext fun a => Fin.ext (by
    match a with
    | ⟨0, _⟩ => exact (d2_rhs0 _ _).trans hk
    | ⟨1, _⟩ => exact d2_rhs1 _ _)
  rw [el, er]

/-! ## The bias rows and the zero splat -/

variable {F : FTy → Type} [FloatOps F]

/-- The first bias as one row, repeated down the rows. -/
def biasRows128 (b : FVec F S128 .f32) : FVec F S50000x128 .f32 :=
  broadcastInDim S50000x128 ![0, 1] bcast_S1x128_S50000x128_0_1 (broadcastInDim S1x128 ![1] bcast_S128_S1x128_1 b)
/-- The second bias as one row, repeated down the rows. -/
def biasRows40 (b : FVec F S40 .f32) : FVec F S50000x40 .f32 :=
  broadcastInDim S50000x40 ![0, 1] bcast_S1x40_S50000x40_0_1 (broadcastInDim S1x40 ![1] bcast_S40_S1x40_1 b)
/-- Zero everywhere. -/
def zeros128 : FVec F S50000x128 .f32 :=
  broadcastInDim S50000x128 ![] bcast_S_S50000x128 (constant S_ .f32 0x00000000#32)

abbrev mid128 (i : S50000x128.Idx) : S1x128.Idx := fun a => match a with
  | ⟨0, _⟩ => ⟨0, Nat.one_pos⟩
  | ⟨1, _⟩ => ⟨(i 1).val, (i 1).isLt⟩
abbrev mid40 (i : S50000x40.Idx) : S1x40.Idx := fun a => match a with
  | ⟨0, _⟩ => ⟨0, Nat.one_pos⟩
  | ⟨1, _⟩ => ⟨(i 1).val, (i 1).isLt⟩

theorem biasRows128_apply (b : FVec F S128 .f32) (i : S50000x128.Idx) : biasRows128 b i = b (biasAt i) := by
  unfold biasRows128
  refine (broadcastInDim_apply _ bcast_S1x128_S50000x128_0_1 _ i (mid128 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ bcast_S128_S1x128_1 b (mid128 i) (biasAt i) (fun a => match a with
    | ⟨0, _⟩ => by show (i 1).val = if (128 : Nat) = 1 then 0 else (i 1).val; rw [if_neg (by decide)])

theorem biasRows40_apply (b : FVec F S40 .f32) (i : S50000x40.Idx) : biasRows40 b i = b (biasAt40 i) := by
  unfold biasRows40
  refine (broadcastInDim_apply _ bcast_S1x40_S50000x40_0_1 _ i (mid40 i) (fun a => match a with
    | ⟨0, _⟩ => by show 0 = if (1 : Nat) = 1 then 0 else (i 0).val; rw [if_pos rfl]
    | ⟨1, _⟩ => by show (i 1).val = if (40 : Nat) = 1 then 0 else (i 1).val; rw [if_neg (by decide)])).trans ?_
  exact broadcastInDim_apply _ bcast_S40_S1x40_1 b (mid40 i) (biasAt40 i) (fun a => match a with
    | ⟨0, _⟩ => by show (i 1).val = if (40 : Nat) = 1 then 0 else (i 1).val; rw [if_neg (by decide)])

theorem zeros128_apply (i : S50000x128.Idx) : zeros128 (F := F) i = FloatOps.ofBits .f32 0x00000000#32 := by
  unfold zeros128
  exact (broadcastInDim_apply _ bcast_S_S50000x128 _ i (fun a => a.elim0) (fun a => a.elim0)).trans rfl

/-- Bias rows added, then the maximum with the zero splat: `hidden`. -/
theorem hidden_eq (a : FVec F S50000x128 .f32) (b : FVec F S128 .f32) :
    maximumf (addf a (biasRows128 b)) zeros128 = hidden a b := by
  funext i
  show FloatOps.maximumf (FloatOps.addf (a i) (biasRows128 b i)) (zeros128 (F := F) i) = _
  rw [biasRows128_apply, zeros128_apply]
  rfl

/-- Bias rows added: `withBias40`. -/
theorem bias40_eq (a : FVec F S50000x40 .f32) (b : FVec F S40 .f32) : addf a (biasRows40 b) = withBias40 a b := by
  funext i
  show FloatOps.addf (a i) (biasRows40 b i) = _
  rw [biasRows40_apply]
  rfl

/-! ## The reference's term -/

/-- The reference's operations in order, over the shared aggregation steps. -/
def refForm (x : FVec Ideal S50000x128 .f32) (e : IVec S2x640000 32) (w1 : FVec Ideal S128x128 .f32) (b1 : FVec Ideal S128 .f32)
    (w2 : FVec Ideal S128x40 .f32) (b2 : FVec Ideal S40 .f32) : FVec Ideal S50000x40 .f32 :=
  addf (aggr40 (Host.dotGeneral d2 none
      (maximumf (addf (aggr128 (Host.dotGeneral d1 none x w1) (srcOf e) (dstOf e) (normOf (F := Ideal) (srcOf e) (dstOf e))) (biasRows128 b1)) zeros128) w2)
    (srcOf e) (dstOf e) (normOf (F := Ideal) (srcOf e) (dstOf e))) (biasRows40 b2)

/-- It is `gcnOut`. -/
theorem refForm_eq (x : FVec Ideal S50000x128 .f32) (e : IVec S2x640000 32) (w1 : FVec Ideal S128x128 .f32) (b1 : FVec Ideal S128 .f32)
    (w2 : FVec Ideal S128x40 .f32) (b2 : FVec Ideal S40 .f32) : refForm x e w1 b1 w2 b2 = gcnOut x e w1 b1 w2 b2 := by
  unfold refForm gcnOut
  rw [dot1_eq, hidden_eq, dot2_eq, bias40_eq]

set_option maxRecDepth 16384 in
set_option maxHeartbeats 8000000 in
/-- The run's term is that form: the same operations, written over the shared steps. -/
theorem res_form (m : (ℓ : Loc nD τ sig) → Buf (Elt Ideal) ℓ) (c : Dev nD) :
    Cert.ReferenceIdeal.ValueP.res_main_v87 (F := Ideal) m c
      = refForm (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v87
  rfl

/-- The reference's result is `gcnOut` of its arguments. -/
theorem res_eq (m : (ℓ : Loc nD τ sig) → Buf (Elt Ideal) ℓ) (c : Dev nD) :
    Cert.ReferenceIdeal.ValueP.res_main_v87 (F := Ideal) m c
      = gcnOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (res_form m c).trans (refForm_eq _ _ _ _ _ _)

end Cert.Gcn.RefSide

end
-- ==== Proof.KernelRun.lean ====
/-
  The idealized kernel program's run with its result named: every weakly fair execution of the whole program (four
  kernels among stretches of host operations) ends, nothing faulting, with the result buffer at what the last segment
  boundary's contents say it holds and the six arguments as launched. The run itself is the launch of the program's nine
  segments over the generated proof data of each kernel and the generated contents at every boundary; the only thing
  added to the frame statement is that the final state is ALSO read at the result buffer.
-/
import proofs.«100879_j5342939316758_1_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents `W9` of it, the arguments as launched. -/
theorem run : θ_run defs (onTc (τ := τ) (main (F := F))) ⟨m, fun _ => 0, ρ⟩ (fun r => ∀ c : Dev nD,
      r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.Gcn.KernelRun

end
-- ==== Proof.HostPre.lean ====
/-
  The host operations before the first kernel, read back: when the first kernel is entered the buffers of the
  extended source list, the extended target list and the edge weights hold `srcOf`, `dstOf` and `normOf` of the
  edge-list argument (each operation's result is its function of its operands' contents; a buffer no operation writes
  keeps its contents), and the float arguments are as launched.
-/
import proofs.«100879_j5342939316758_1_alg».proof.Proof.Gen.KernelIdeal.Frame
import proofs.«100879_j5342939316758_1_alg».proof.Proof.Spec
import Idealize.ShloMosaic.Lib.StableHlo.Run

noncomputable section

namespace Cert.Gcn.HostPre

open Idealize.ShloMosaic Idealize.ShloMosaic.TcCoe Idealize.SL.Sem Idealize.ShloMosaic.StableHlo
open Cert.KernelIdeal Cert.KernelIdeal.Gen Cert.KernelIdeal.Facts₀

variable {F : FTy → Type} [FloatOps F]
variable (m : (ℓ : Loc nD τ sig) → Buf (Elt F) ℓ) (ρ : Dev nD → PrngReg)

set_option maxRecDepth 8192 in
set_option maxHeartbeats 4000000 in
/-- The extended source list. -/
theorem src_eq (c : Dev nD) : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  after_results_simp <;> rfl

set_option maxRecDepth 8192 in
set_option maxHeartbeats 4000000 in
/-- The extended target list. -/
theorem dst_eq (c : Dev nD) : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  after_results_simp <;> rfl

set_option maxRecDepth 8192 in
set_option maxHeartbeats 16000000 in
/-- The edge weights. -/
theorem norm_eq (c : Dev nD) : W3 m ρ c (Proc.devRef .tc main_v29)
    = normOf (F := F) (srcOf (m ((c : Thread nD τ).loc main_arg1))) (dstOf (m ((c : Thread nD τ).loc main_arg1))) := by
  show StableHlo.after hostOps0_2 (StableHlo.after hostOps0_1 (StableHlo.after hostOps0 (W0 m ρ c))) (Proc.devRef .tc main_v29) = _
  after_results_simp <;> rfl

set_option maxRecDepth 8192 in
set_option maxHeartbeats 4000000 in
/-- The node features, as launched. -/
theorem arg0_eq (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

set_option maxRecDepth 8192 in
set_option maxHeartbeats 4000000 in
/-- The first weight matrix, as launched. -/
theorem arg2_eq (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

end Cert.Gcn.HostPre

end
-- ==== Proof.HostSteps.lean ====
/-
  The host operations between the kernels, read back, and what every later stage still finds of the earlier ones.
  After the first kernel the host gathers, scales and scatter-adds its result: the aggregated buffer holds `aggr128` of
  that result and of the source list, target list and edge weights as they stand then; after the third kernel the same
  with `aggr40`. No kernel and none of these operations writes the source list, the target list, the edge weights or a
  float argument, so each of those buffers still holds what it held when the first kernel was entered.
-/
import proofs.«100879_j5342939316758_1_alg».proof.Proof.Gen.KernelIdeal.Frame
import proofs.«100879_j5342939316758_1_alg».proof.Proof.Spec
import proofs.«100879_j5342939316758_1_alg».proof.Proof.HostPre
import Idealize.ShloMosaic.Lib.StableHlo.Run

noncomputable section

namespace Cert.Gcn.HostSteps

open Idealize.ShloMosaic Idealize.ShloMosaic.TcCoe Idealize.SL.Sem Idealize.ShloMosaic.StableHlo
open Cert.KernelIdeal Cert.KernelIdeal.Gen Cert.KernelIdeal.Facts₀

variable {F : FTy → Type} [FloatOps F]
variable (m : (ℓ : Loc nD τ sig) → Buf (Elt F) ℓ) (ρ : Dev nD → PrngReg)

/-! ## The two aggregation steps -/

set_option maxRecDepth 8192 in
set_option maxHeartbeats 4000000 in
/-- Between the first and the second kernel: the first layer's aggregation. -/
theorem agg1 (c : Dev nD) : W5 m ρ c (Proc.devRef .tc main_v43)
    = aggr128 (F := F) (W4 m ρ c (Proc.devRef .tc main_v30)) (W4 m ρ c (Proc.devRef .tc main_v3))
        (W4 m ρ c (Proc.devRef .tc main_v6)) (W4 m ρ c (Proc.devRef .tc main_v29)) := by
  show StableHlo.after hostOps1 (W4 m ρ c) (Proc.devRef .tc main_v43) = _
  after_results_simp <;> rfl

set_option maxRecDepth 8192 in
set_option maxHeartbeats 4000000 in
/-- Between the third and the fourth kernel: the second layer's aggregation. -/
theorem agg2 (c : Dev nD) : W8 m ρ c (Proc.devRef .tc main_v58)
    = aggr40 (F := F) (W7 m ρ c (Proc.devRef .tc main_v45)) (W7 m ρ c (Proc.devRef .tc main_v3))
        (W7 m ρ c (Proc.devRef .tc main_v6)) (W7 m ρ c (Proc.devRef .tc main_v29)) := by
  show StableHlo.after hostOps3 (W7 m ρ c) (Proc.devRef .tc main_v58) = _
  after_results_simp <;> rfl

/-! ## What is carried along unchanged -/

/-- A buffer the host operations between the first two kernels do not write. -/
theorem keep45 (c : Dev nD) (b : Ref sig .tc) (h : W5 m ρ c (Proc.devRef .tc b) = W4 m ρ c (Proc.devRef .tc b))
    (h4 : ∀ w, Pipeline.arrRef spec0 w ≠ b) : W5 m ρ c (Proc.devRef .tc b) = W3 m ρ c (Proc.devRef .tc b) :=
  h.trans (W4_of_ne m ρ c b h4)

set_option maxRecDepth 8192 in
set_option maxHeartbeats 4000000 in
theorem src5 (c : Dev nD) : W5 m ρ c (Proc.devRef .tc main_v3) = srcOf (m ((c : Thread nD τ).loc main_arg1)) :=
  (keep45 m ρ c main_v3 (by show StableHlo.after hostOps1 (W4 m ρ c) (Proc.devRef .tc main_v3) = _; after_results_simp <;> rfl) (by decide)).trans
    (HostPre.src_eq m ρ c)
set_option maxRecDepth 8192 in
set_option maxHeartbeats 4000000 in
theorem dst5 (c : Dev nD) : W5 m ρ c (Proc.devRef .tc main_v6) = dstOf (m ((c : Thread nD τ).loc main_arg1)) :=
  (keep45 m ρ c main_v6 (by show StableHlo.after hostOps1 (W4 m ρ c) (Proc.devRef .tc main_v6) = _; after_results_simp <;> rfl) (by decide)).trans
    (HostPre.dst_eq m ρ c)
set_option maxRecDepth 8192 in
set_option maxHeartbeats 4000000 in
theorem norm5 (c : Dev nD) : W5 m ρ c (Proc.devRef .tc main_v29)
    = normOf (F := F) (srcOf (m ((c : Thread nD τ).loc main_arg1))) (dstOf (m ((c : Thread nD τ).loc main_arg1))) :=
  (keep45 m ρ c main_v29 (by show StableHlo.after hostOps1 (W4 m ρ c) (Proc.devRef .tc main_v29) = _; after_results_simp <;> rfl) (by decide)).trans
    (HostPre.norm_eq m ρ c)

/-- When the second layer's aggregation starts the source list is still there, -/
theorem src7 (c : Dev nD) : W7 m ρ c (Proc.devRef .tc main_v3) = srcOf (m ((c : Thread nD τ).loc main_arg1)) :=
  ((W7_of_ne m ρ c main_v3 (by decide)).trans (W6_of_ne m ρ c main_v3 (by decide))).trans (src5 m ρ c)
/-- and the target list, -/
theorem dst7 (c : Dev nD) : W7 m ρ c (Proc.devRef .tc main_v6) = dstOf (m ((c : Thread nD τ).loc main_arg1)) :=
  ((W7_of_ne m ρ c main_v6 (by decide)).trans (W6_of_ne m ρ c main_v6 (by decide))).trans (dst5 m ρ c)
/-- and the edge weights. -/
theorem norm7 (c : Dev nD) : W7 m ρ c (Proc.devRef .tc main_v29)
    = normOf (F := F) (srcOf (m ((c : Thread nD τ).loc main_arg1))) (dstOf (m ((c : Thread nD τ).loc main_arg1))) :=
  ((W7_of_ne m ρ c main_v29 (by decide)).trans (W6_of_ne m ρ c main_v29 (by decide))).trans (norm5 m ρ c)

/-- When the first layer's aggregation starts they are as the first kernel found them. -/
theorem src4 (c : Dev nD) : W4 m ρ c (Proc.devRef .tc main_v3) = srcOf (m ((c : Thread nD τ).loc main_arg1)) :=
  (W4_of_ne m ρ c main_v3 (by decide)).trans (HostPre.src_eq m ρ c)
theorem dst4 (c : Dev nD) : W4 m ρ c (Proc.devRef .tc main_v6) = dstOf (m ((c : Thread nD τ).loc main_arg1)) :=
  (W4_of_ne m ρ c main_v6 (by decide)).trans (HostPre.dst_eq m ρ c)
theorem norm4 (c : Dev nD) : W4 m ρ c (Proc.devRef .tc main_v29)
    = normOf (F := F) (srcOf (m ((c : Thread nD τ).loc main_arg1))) (dstOf (m ((c : Thread nD τ).loc main_arg1))) :=
  (W4_of_ne m ρ c main_v29 (by decide)).trans (HostPre.norm_eq m ρ c)

/-! ## The later float arguments, as launched -/

set_option maxRecDepth 8192 in
set_option maxHeartbeats 4000000 in
/-- The first bias, when the second kernel is entered. -/
theorem arg3_5 (c : Dev nD) : W5 m ρ c (Proc.devRef .tc main_arg3) = m ((c : Thread nD τ).loc main_arg3) :=
  (keep45 m ρ c main_arg3 (by show StableHlo.after hostOps1 (W4 m ρ c) (Proc.devRef .tc main_arg3) = _; after_results_simp <;> rfl) (by decide)).trans
    (by show StableHlo.after hostOps0_2 (StableHlo.after hostOps0_1 (StableHlo.after hostOps0 (W0 m ρ c))) (Proc.devRef .tc main_arg3) = _
        after_results_simp <;> rfl)

set_option maxRecDepth 8192 in
set_option maxHeartbeats 4000000 in
/-- The second weight matrix, when the third kernel is entered. -/
theorem arg4_6 (c : Dev nD) : W6 m ρ c (Proc.devRef .tc main_arg4) = m ((c : Thread nD τ).loc main_arg4) :=
  ((W6_of_ne m ρ c main_arg4 (by decide)).trans
    (keep45 m ρ c main_arg4 (by show StableHlo.after hostOps1 (W4 m ρ c) (Proc.devRef .tc main_arg4) = _; after_results_simp <;> rfl) (by decide))).trans
    (by show StableHlo.after hostOps0_2 (StableHlo.after hostOps0_1 (StableHlo.after hostOps0 (W0 m ρ c))) (Proc.devRef .tc main_arg4) = _
        after_results_simp <;> rfl)

set_option maxRecDepth 8192 in
set_option maxHeartbeats 4000000 in
/-- The second bias, when the fourth kernel is entered. -/
theorem arg5_8 (c : Dev nD) : W8 m ρ c (Proc.devRef .tc main_arg5) = m ((c : Thread nD τ).loc main_arg5) :=
  ((((show W8 m ρ c (Proc.devRef .tc main_arg5) = W7 m ρ c (Proc.devRef .tc main_arg5) by
        show StableHlo.after hostOps3 (W7 m ρ c) (Proc.devRef .tc main_arg5) = _; after_results_simp <;> rfl).trans
      (W7_of_ne m ρ c main_arg5 (by decide))).trans (W6_of_ne m ρ c main_arg5 (by decide))).trans
    (keep45 m ρ c main_arg5 (by show StableHlo.after hostOps1 (W4 m ρ c) (Proc.devRef .tc main_arg5) = _; after_results_simp <;> rfl) (by decide))).trans
    (by show StableHlo.after hostOps0_2 (StableHlo.after hostOps0_1 (StableHlo.after hostOps0 (W0 m ρ c))) (Proc.devRef .tc main_arg5) = _
        after_results_simp <;> rfl)

end Cert.Gcn.HostSteps

end
-- ==== Proof.Region0.lean ====
/-
  The first dense product, read off the kernel's run: what the ten grid points of the first kernel leave in its result
  array. Point t loads rows 5000·t … 5000·t + 4999 of its first operand and the whole [128, 128] second operand, and
  stores their product (operands rounded to a narrower format on the way in, which changes nothing on the extended
  reals; the accumulator starts at zero) as rows 5000·t … of the result. An entry of a block's product is the sum
  over k of the block row's k-th entry times the weight's (k, column) entry, and the block's row r is the array's row
  5000·t + r: so every block is the corresponding block of `mm128` of the two arrays, the ten blocks cover the
  result, and the result array ends holding `mm128` of the two arrays as the kernel finds them.
-/
import proofs.«100879_j5342939316758_1_alg».proof.Proof.Gen.KernelIdeal.Frame
import proofs.«100879_j5342939316758_1_alg».proof.Proof.Spec
import Idealize.ShloMosaic.Lib.Pipeline.Value
import Idealize.ShloMosaic.Lib.ValueIdx
import Idealize.ShloMosaic.PureOps.Ideal.Laws

noncomputable section

open scoped BigOperators

namespace Cert.Gcn.Region0

open Idealize.ShloMosaic Idealize.ShloMosaic.TcCoe Idealize.SL.Sem
open Idealize.ShloMosaic.Pipeline (Dat)
open Cert.KernelIdeal Cert.KernelIdeal.Gen Cert.KernelIdeal.Facts₀

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers: rows by columns, contracting the one shared axis of extent 128. -/
abbrev dims := dot_S5000x128_S128x128_S5000x128_1_0_0_1_n_n

/-- Position (row of `j`, k) of a [5000, 128] block. -/
abbrev bRow (j : S5000x128.Idx) (k : Fin 128) : S5000x128.Idx := fun a => match a with
  | ⟨0, _⟩ => ⟨(j 0).val, (j 0).isLt⟩
  | ⟨1, _⟩ => ⟨k.val, k.isLt⟩
/-- Position (k, column of `j`) of the weight matrix. -/
abbrev bCol (j : S5000x128.Idx) (k : Fin 128) : S128x128.Idx := fun a => match a with
  | ⟨0, _⟩ => ⟨k.val, k.isLt⟩
  | ⟨1, _⟩ => ⟨(j 1).val, (j 1).isLt⟩

theorem lhs0 (j : S5000x128.Idx) (q : dims.contr.Idx) : (dims.lhsIdx j q 0).val = (j 0).val := by
  unfold DotDims.lhsIdx
  rw [dif_neg (show ¬(0 : Fin S5000x128.rank) ∈ dims.lhsBatch by decide), dif_pos (show (0 : Fin S5000x128.rank) ∈ dims.lhsNonContracting by decide)]
  rfl
theorem lhs1 (j : S5000x128.Idx) (q : dims.contr.Idx) : (dims.lhsIdx j q 1).val = (q ⟨0, by decide⟩).val :=
  dims.lhsIdx_val_of_single rfl j q
theorem rhs0 (j : S5000x128.Idx) (q : dims.contr.Idx) : (dims.rhsIdx j q 0).val = (q ⟨0, by decide⟩).val :=
  dims.rhsIdx_val_of_single rfl j q
theorem rhs1 (j : S5000x128.Idx) (q : dims.contr.Idx) : (dims.rhsIdx j q 1).val = (j 1).val := by
  unfold DotDims.rhsIdx
  rw [dif_neg (show ¬(1 : Fin S128x128.rank) ∈ dims.rhsBatch by decide), dif_pos (show (1 : Fin S128x128.rank) ∈ dims.rhsNonContracting by decide)]
  rfl

/-- One entry of what a point stores: the sum over k of the block row's entries times the weight column's. -/
theorem pay_apply (x0 : Vec Ideal S5000x128 .f32) (x1 : Vec Ideal S128x128 .f32) (j : S5000x128.Idx) :
    k0_pay1 x0 x1 j = ∑ k : Fin 128, x0 (bRow j k) * x1 (bCol j k) := by
  unfold k0_pay1
  refine (Ideal.matmul_constant_zero_apply dims none _ _ j).trans ?_
  rw [← Equiv.sum_comp (ValueIdx.contrEquiv1 dims 128 rfl rfl).symm]
  refine Finset.sum_congr rfl fun k _ => ?_
  have hk := ValueIdx.contrEquiv1_symm_val dims 128 rfl rfl k
  have el : dims.lhsIdx j ((ValueIdx.contrEquiv1 dims 128 rfl rfl).symm k) = bRow j k := funext fun a => Fin.ext (by
    match a with
    | ⟨0, _⟩ => exact lhs0 _ _
    | ⟨1, _⟩ => exact (lhs1 _ _).trans hk)
  have er : dims.rhsIdx j ((ValueIdx.contrEquiv1 dims 128 rfl rfl).symm k) = bCol j k := funext fun a => Fin.ext (by
    match a with
    | ⟨0, _⟩ => exact (rhs0 _ _).trans hk
    | ⟨1, _⟩ => exact rhs1 _ _)
  rw [el, er]
  rfl

/-- The index maps over the ten points: the row operand and the result move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of the row operand's block at point t is row 5000·t + r of the array. -/
theorem read_rows (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → Elt Ideal .f32) i := by
  obtain ⟨e0, e1, -, -, -, -⟩ := idx_facts t
  unfold iblk0
  rw [View.read_apply]
  show V c main_arg0 (((cfg0.win 0).blk t).view.emb y) = V c main_arg0 i
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight operand's one block is the whole array. -/
theorem read_weights (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_arg2 : S128x128.Idx → Elt Ideal .f32) i := by
  obtain ⟨-, -, e2, e3, -, -⟩ := idx_facts t
  unfold iblk0
  rw [View.read_apply]
  show V c main_arg2 (((cfg0.win 1).blk t).view.emb y) = V c main_arg2 i
  refine congrArg _ (funext fun a => Fin.ext ?_)
  match a with
  | ⟨0, _⟩ => show win0_1.index t (0 : Fin 2) * 128 + 1 * (y 0).val = (i 0).val; rw [e2, h0]; omega
  | ⟨1, _⟩ => show win0_1.index t (1 : Fin 2) * 128 + 1 * (y 1).val = (i 1).val; rw [e3, h1]; omega

/-- What point t writes back is block t of `mm128` of the two arrays. -/
theorem flushed_eq (c : Dev nD) (t : Fin cfg0.N) :
    (dat0 V c).flushed 2 t = ((cfg0.win 2).blk t).view.read (Elt Ideal) (mm128 (V c main_arg0) (V c main_arg2)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  show k0_pay1 (iblk0 V c 0 t) (iblk0 V c 1 t) j = mm128 (V c main_arg0) (V c main_arg2) (((cfg0.win 2).blk t).view.emb j)
  refine (pay_apply (iblk0 V c 0 t) (iblk0 V c 1 t) j).trans ?_
  unfold mm128
  refine Finset.sum_congr rfl fun k _ => ?_
  have hr : (iblk0 V c 0 t : Vec Ideal S5000x128 .f32) (bRow j k) = (V c main_arg0 : S50000x128.Idx → Elt Ideal .f32) (rowAt (((cfg0.win 2).blk t).view.emb j) k) :=
    read_rows V c t (bRow j k) _
      (by show (((cfg0.win 2).blk t).view.emb j 0).val = t.val * 5000 + (j 0).val
          show win0_2.index t (0 : Fin 2) * 5000 + 1 * (j 0).val = _; rw [e4]; omega)
      rfl
  have hw : (iblk0 V c 1 t : Vec Ideal S128x128 .f32) (bCol j k) = (V c main_arg2 : S128x128.Idx → Elt Ideal .f32) (colAt (((cfg0.win 2).blk t).view.emb j) k) :=
    read_weights V c t (bCol j k) _ rfl
      (by show (((cfg0.win 2).blk t).view.emb j 1).val = (j 1).val
          show win0_2.index t (1 : Fin 2) * 128 + 1 * (j 1).val = _; rw [e5]; omega)
  rw [hr, hw]

/-- An index of the result is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The result array after the region: `mm128` of the two operand arrays as the region finds them. -/
theorem value (c : Dev nD) : (dat0 V c).arrAt 2 cfg0.N = mm128 (V c main_arg0) (V c main_arg2) :=
  (dat0 V c).arrAt_eq_of_cover 2 _ (fun t _ => flushed_eq V c t) fun i => by
    have hi0 : (i 0).val < 50000 := (i 0).isLt
    have hi1 : (i 1).val < 128 := (i 1).isLt
    have hN : cfg0.N = 10 := N_0
    refine ⟨⟨(i 0).val / 5000, by rw [hN]; omega⟩, flush0_2 _, ?_⟩
    rw [mem_blk]
    obtain ⟨-, -, -, -, e4, e5⟩ := idx_facts ⟨(i 0).val / 5000, by rw [hN]; omega⟩
    intro a
    match a with
    | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
    | ⟨1, _⟩ => show win0_2.index _ (1 : Fin 2) * 128 ≤ (i 1).val ∧ (i 1).val < win0_2.index _ (1 : Fin 2) * 128 + 128; rw [e5]; omega

end Cert.Gcn.Region0

end
-- ==== Proof.Region1.lean ====
/-
  The first bias-and-maximum step, read off the kernel's run: what the ten grid points of the second kernel leave in
  its result array. Point t loads rows 5000·t … of its first operand and the whole bias row, adds the bias row to every
  row of the block, takes the maximum with zero, and stores that as rows 5000·t … of the result. Entry (r, j) of a
  block's result depends on the block's entry (r, j) and the bias entry j only, and the block's row r is the array's
  row 5000·t + r: every block is the corresponding block of `hidden` of the two arrays, the ten blocks cover the
  result, and the result array ends holding `hidden` of the two arrays as the kernel finds them.
-/
import proofs.«100879_j5342939316758_1_alg».proof.Proof.Gen.KernelIdeal.Frame
import proofs.«100879_j5342939316758_1_alg».proof.Proof.Spec
import Idealize.ShloMosaic.Lib.Pipeline.Value
import Idealize.ShloMosaic.Lib.ValueIdx

noncomputable section

namespace Cert.Gcn.Region1

open Idealize.ShloMosaic Idealize.ShloMosaic.TcCoe Idealize.SL.Sem
open Idealize.ShloMosaic.Pipeline (Dat)
open Cert.KernelIdeal Cert.KernelIdeal.Gen Cert.KernelIdeal.Facts₀

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The bias entry under column of `j`. -/
abbrev bBias (j : S5000x128.Idx) : S128.Idx := fun a => match a with
  | ⟨0, _⟩ => ⟨(j 1).val, (j 1).isLt⟩
/-- The same entry in the bias viewed as one row. -/
abbrev bBiasRow (j : S5000x128.Idx) : S1x128.Idx := fun a => match a with
  | ⟨0, _⟩ => ⟨0, Nat.one_pos⟩
  | ⟨1, _⟩ => ⟨(j 1).val, (j 1).isLt⟩

/-- The bias viewed as one row and repeated down the block reads, at (r, j), the bias entry j. -/
theorem bias_apply (x1 : Vec F S128 .f32) (j : S5000x128.Idx) :
    broadcastTo S5000x128 (shapeCast S1x128 x1 Facts₀.shapeCasts_S128_S1x128) Facts₀.broadcasts_S1x128_S5000x128 j = x1 (bBias j) := by
  refine (broadcastTo_apply _ Facts₀.broadcasts_S1x128_S5000x128 j (bBiasRow j) (fun a => match a with
    | ⟨0, _⟩ => by show 0 = if (1 : Nat) = 1 then 0 else _; rw [if_pos rfl]
    | ⟨1, _⟩ => by show (j 1).val = if (128 : Nat) = 1 then 0 else _; rw [if_neg (by decide)]; rfl)).trans ?_
  refine shapeCast_apply x1 Facts₀.shapeCasts_S128_S1x128 (bBiasRow j) (bBias j) ?_
  rw [Shape.rowMajor_val_one, Shape.rowMajor_val_two]
  show (j 1).val = 0 * 128 + (j 1).val
  omega

/-- One entry of what a point stores: the block's entry plus the bias entry of its column, or zero if that is larger. -/
theorem pay_apply (x0 : Vec F S5000x128 .f32) (x1 : Vec F S128 .f32) (j : S5000x128.Idx) :
    k1_pay1 x0 x1 j = FloatOps.maximumf (FloatOps.addf (x0 j) (x1 (bBias j))) (FloatOps.ofBits .f32 0x00000000#32) := by
  unfold k1_pay1
  show FloatOps.maximumf (FloatOps.addf (shapeCast S5000x128 x0 Facts₀.shapeCasts_S5000x128_S5000x128 j)
    (broadcastTo S5000x128 (shapeCast S1x128 x1 Facts₀.shapeCasts_S128_S1x128) Facts₀.broadcasts_S1x128_S5000x128 j)) _ = _
  rw [shapeCast_self, bias_apply]
  rfl

/-- The index maps over the ten points: the row operand and the result move with the point, the bias stays. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Row r of the row operand's block at point t is row 5000·t + r of the array. -/
theorem read_rows (c : Dev nD) (t : Fin cfg1.N) (y : S5000x128.Idx) (i : S50000x128.Idx)
    (h0 : (i 0).val = t.val * 5000 + (y 0).val) (h1 : (i 1).val = (y 1).val) :
    (iblk1 V c 0 t : Vec F S5000x128 .f32) y = (V c main_v43 : S50000x128.Idx → Elt F .f32) i := by
  obtain ⟨e0, e1, -, -, -⟩ := idx_facts t
  unfold iblk1
  rw [View.read_apply]
  show V c main_v43 (((cfg1.win 0).blk t).view.emb y) = V c main_v43 i
  refine congrArg _ (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The bias operand's one block is the whole bias. -/
theorem read_bias (c : Dev nD) (t : Fin cfg1.N) (y : S128.Idx) (i : S128.Idx) (h0 : (i 0).val = (y 0).val) :
    (iblk1 V c 1 t : Vec F S128 .f32) y = (V c main_arg3 : S128.Idx → Elt F .f32) i := by
  obtain ⟨-, -, e2, -, -⟩ := idx_facts t
  unfold iblk1
  rw [View.read_apply]
  show V c main_arg3 (((cfg1.win 1).blk t).view.emb y) = V c main_arg3 i
  refine congrArg _ (funext fun a => Fin.ext ?_)
  match a with
  | ⟨0, _⟩ => show win1_1.index t (0 : Fin 1) * 128 + 1 * (y 0).val = (i 0).val; rw [e2, h0]; omega

/-- What point t writes back is block t of `hidden` of the two arrays. -/
theorem flushed_eq (c : Dev nD) (t : Fin cfg1.N) :
    (dat1 V c).flushed 2 t = ((cfg1.win 2).blk t).view.read (Elt F) (hidden (V c main_v43) (V c main_arg3)) := by
  obtain ⟨-, -, -, e3, e4⟩ := idx_facts t
  show (cfg1.win 2).cut (grid1.coords t) ((dat1 V c).after 2 t) = _
  rw [after1_2]
  unfold out1_2
  rw [View.canon_unit_zero hz]
  simp only [View.ld_unit_zero (S := S5000x128) hz, View.ld_unit_zero (S := S128) hz1]
  funext j
  show k1_pay1 (iblk1 V c 0 t) (iblk1 V c 1 t) j = hidden (V c main_v43) (V c main_arg3) (((cfg1.win 2).blk t).view.emb j)
  refine (pay_apply (iblk1 V c 0 t) (iblk1 V c 1 t) j).trans ?_
  unfold hidden
  have hr : (iblk1 V c 0 t : Vec F S5000x128 .f32) j = (V c main_v43 : S50000x128.Idx → Elt F .f32) (((cfg1.win 2).blk t).view.emb j) :=
    read_rows V c t j _
      (by show win1_2.index t (0 : Fin 2) * 5000 + 1 * (j 0).val = _; rw [e3]; omega)
      (by show win1_2.index t (1 : Fin 2) * 128 + 1 * (j 1).val = _; rw [e4]; omega)
  have hb : (iblk1 V c 1 t : Vec F S128 .f32) (bBias j) = (V c main_arg3 : S128.Idx → Elt F .f32) (biasAt (((cfg1.win 2).blk t).view.emb j)) :=
    read_bias V c t (bBias j) _
      (by show (((cfg1.win 2).blk t).view.emb j 1).val = (j 1).val
          show win1_2.index t (1 : Fin 2) * 128 + 1 * (j 1).val = (j 1).val; rw [e4]; omega)
  rw [hr, hb]

/-- An index of the result is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- The result array after the region: `hidden` of the two operand arrays as the region finds them. -/
theorem value (c : Dev nD) : (dat1 V c).arrAt 2 cfg1.N = hidden (V c main_v43) (V c main_arg3) :=
  (dat1 V c).arrAt_eq_of_cover 2 _ (fun t _ => flushed_eq V c t) fun i => by
    have hi0 : (i 0).val < 50000 := (i 0).isLt
    have hi1 : (i 1).val < 128 := (i 1).isLt
    have hN : cfg1.N = 10 := N_1
    refine ⟨⟨(i 0).val / 5000, by rw [hN]; omega⟩, flush1_2 _, ?_⟩
    rw [mem_blk]
    obtain ⟨-, -, -, e3, e4⟩ := idx_facts ⟨(i 0).val / 5000, by rw [hN]; omega⟩
    intro a
    match a with
    | ⟨0, _⟩ => show win1_2.index _ (0 : Fin 2) * 5000 ≤ (i 0).val ∧ (i 0).val < win1_2.index _ (0 : Fin 2) * 5000 + 5000; rw [e3]; show (i 0).val / 5000 * 5000 ≤ (i 0).val ∧ (i 0).val < (i 0).val / 5000 * 5000 + 5000; omega
    | ⟨1, _⟩ => show win1_2.index _ (1 : Fin 2) * 128 ≤ (i 1).val ∧ (i 1).val < win1_2.index _ (1 : Fin 2) * 128 + 128; rw [e4]; omega

end Cert.Gcn.Region1

end
-- ==== Proof.Region2.lean ====
/-
  The second dense product, read off the kernel's run: what the ten grid points of the third kernel leave in its result
  array. Point t loads rows 5000·t … of its first operand and the whole [128, 40] second operand and stores their
  product (operands rounded to a narrower format on the way in, which changes nothing on the extended reals; the
  accumulator starts at zero) as rows 5000·t … of the result. An entry of a block's product is the sum over k of the
  block row's k-th entry times the weight's (k, column) entry, and the block's row r is the array's row 5000·t + r: every
  block is the corresponding block of `mm40` of the two arrays, the ten blocks cover the result, and the result array
  ends holding `mm40` of the two arrays as the kernel finds them.
-/
import proofs.«100879_j5342939316758_1_alg».proof.Proof.Gen.KernelIdeal.Frame
import proofs.«100879_j5342939316758_1_alg».proof.Proof.Spec
import Idealize.ShloMosaic.Lib.Pipeline.Value
import Idealize.ShloMosaic.Lib.ValueIdx
import Idealize.ShloMosaic.PureOps.Ideal.Laws

noncomputable section

open scoped BigOperators

namespace Cert.Gcn.Region2

open Idealize.ShloMosaic Idealize.ShloMosaic.TcCoe Idealize.SL.Sem
open Idealize.ShloMosaic.Pipeline (Dat)
open Cert.KernelIdeal Cert.KernelIdeal.Gen Cert.KernelIdeal.Facts₀

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers: rows by columns, contracting the one shared axis of extent 128. -/
abbrev dims := dot_S5000x128_S128x40_S5000x40_1_0_0_1_n_n

/-- Position (row of `j`, k) of a [5000, 128] block. -/
abbrev bRow (j : S5000x40.Idx) (k : Fin 128) : S5000x128.Idx := fun a => match a with
  | ⟨0, _⟩ => ⟨(j 0).val, (j 0).isLt⟩
  | ⟨1, _⟩ => ⟨k.val, k.isLt⟩
/-- Position (k, column of `j`) of the weight matrix. -/
abbrev bCol (j : S5000x40.Idx) (k : Fin 128) : S128x40.Idx := fun a => match a with
  | ⟨0, _⟩ => ⟨k.val, k.isLt⟩
  | ⟨1, _⟩ => ⟨(j 1).val, (j 1).isLt⟩

theorem lhs0 (j : S5000x40.Idx) (q : dims.contr.Idx) : (dims.lhsIdx j q 0).val = (j 0).val := by
  unfold DotDims.lhsIdx
  rw [dif_neg (show ¬(0 : Fin S5000x128.rank) ∈ dims.lhsBatch by decide), dif_pos (show (0 : Fin S5000x128.rank) ∈ dims.lhsNonContracting by decide)]
  rfl
theorem lhs1 (j : S5000x40.Idx) (q : dims.contr.Idx) : (dims.lhsIdx j q 1).val = (q ⟨0, by decide⟩).val :=
  dims.lhsIdx_val_of_single rfl j q
theorem rhs0 (j : S5000x40.Idx) (q : dims.contr.Idx) : (dims.rhsIdx j q 0).val = (q ⟨0, by decide⟩).val :=
  dims.rhsIdx_val_of_single rfl j q
theorem rhs1 (j : S5000x40.Idx) (q : dims.contr.Idx) : (dims.rhsIdx j q 1).val = (j 1).val := by
  unfold DotDims.rhsIdx
  rw [dif_neg (show ¬(1 : Fin S128x40.rank) ∈ dims.rhsBatch by decide), dif_pos (show (1 : Fin S128x40.rank) ∈ dims.rhsNonContracting by decide)]
  rfl

/-- One entry of what a point stores: the sum over k of the block row's entries times the weight column's. -/
theorem pay_apply (x0 : Vec Ideal S5000x128 .f32) (x1 : Vec Ideal S128x40 .f32) (j : S5000x40.Idx) :
    k2_pay1 x0 x1 j = ∑ k : Fin 128, x0 (bRow j k) * x1 (bCol j k) := by
  unfold k2_pay1
  refine (Ideal.matmul_constant_zero_apply dims none _ _ j).trans ?_
  rw [← Equiv.sum_comp (ValueIdx.contrEquiv1 dims 128 rfl rfl).symm]
  refine Finset.sum_congr rfl fun k _ => ?_
  have hk := ValueIdx.contrEquiv1_symm_val dims 128 rfl rfl k
  have el : dims.lhsIdx j ((ValueIdx.contrEquiv1 dims 128 rfl rfl).symm k) = bRow j k := funext fun a => Fin.ext (by
    match a with
    | ⟨0, _⟩ => exact lhs0 _ _
    | ⟨1, _⟩ => exact (lhs1 _ _).trans hk)
  have er : dims.rhsIdx j ((ValueIdx.contrEquiv1 dims 128 rfl rfl).symm k) = bCol j k := funext fun a => Fin.ext (by
    match a with
    | ⟨0, _⟩ => exact (rhs0 _ _).trans hk
    | ⟨1, _⟩ => exact rhs1 _ _)
  rw [el, er, shapeCast_self]
  rfl

/-- The index maps over the ten points: the row operand and the result move with the point, the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row r of the row operand's block at point t is row 5000·t + r of the array. -/
theorem read_rows (c : Dev nD) (t : Fin cfg2.N) (y : S5000x128.Idx) (i : S50000x128.Idx)
    (h0 : (i 0).val = t.val * 5000 + (y 0).val) (h1 : (i 1).val = (y 1).val) :
    (iblk2 V c 0 t : Vec Ideal S5000x128 .f32) y = (V c main_v44 : S50000x128.Idx → Elt Ideal .f32) i := by
  obtain ⟨e0, e1, -, -, -, -⟩ := idx_facts t
  unfold iblk2
  rw [View.read_apply]
  show V c main_v44 (((cfg2.win 0).blk t).view.emb y) = V c main_v44 i
  refine congrArg _ (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The weight operand's one block is the whole array. -/
theorem read_weights (c : Dev nD) (t : Fin cfg2.N) (y : S128x40.Idx) (i : S128x40.Idx)
    (h0 : (i 0).val = (y 0).val) (h1 : (i 1).val = (y 1).val) :
    (iblk2 V c 1 t : Vec Ideal S128x40 .f32) y = (V c main_arg4 : S128x40.Idx → Elt Ideal .f32) i := by
  obtain ⟨-, -, e2, e3, -, -⟩ := idx_facts t
  unfold iblk2
  rw [View.read_apply]
  show V c main_arg4 (((cfg2.win 1).blk t).view.emb y) = V c main_arg4 i
  refine congrArg _ (funext fun a => Fin.ext ?_)
  match a with
  | ⟨0, _⟩ => show win2_1.index t (0 : Fin 2) * 128 + 1 * (y 0).val = (i 0).val; rw [e2, h0]; omega
  | ⟨1, _⟩ => show win2_1.index t (1 : Fin 2) * 40 + 1 * (y 1).val = (i 1).val; rw [e3, h1]; omega

/-- What point t writes back is block t of `mm40` of the two arrays. -/
theorem flushed_eq (c : Dev nD) (t : Fin cfg2.N) :
    (dat2 V c).flushed 2 t = ((cfg2.win 2).blk t).view.read (Elt Ideal) (mm40 (V c main_v44) (V c main_arg4)) := by
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S5000x128) hz, View.ld_unit_zero (S := S128x40) hz]
  funext j
  show k2_pay1 (iblk2 V c 0 t) (iblk2 V c 1 t) j = mm40 (V c main_v44) (V c main_arg4) (((cfg2.win 2).blk t).view.emb j)
  refine (pay_apply (iblk2 V c 0 t) (iblk2 V c 1 t) j).trans ?_
  unfold mm40
  refine Finset.sum_congr rfl fun k _ => ?_
  have hr : (iblk2 V c 0 t : Vec Ideal S5000x128 .f32) (bRow j k) = (V c main_v44 : S50000x128.Idx → Elt Ideal .f32) (rowAt40 (((cfg2.win 2).blk t).view.emb j) k) :=
    read_rows V c t (bRow j k) _
      (by show (((cfg2.win 2).blk t).view.emb j 0).val = t.val * 5000 + (j 0).val
          show win2_2.index t (0 : Fin 2) * 5000 + 1 * (j 0).val = _; rw [e4]; omega)
      rfl
  have hw : (iblk2 V c 1 t : Vec Ideal S128x40 .f32) (bCol j k) = (V c main_arg4 : S128x40.Idx → Elt Ideal .f32) (colAt40 (((cfg2.win 2).blk t).view.emb j) k) :=
    read_weights V c t (bCol j k) _ rfl
      (by show (((cfg2.win 2).blk t).view.emb j 1).val = (j 1).val
          show win2_2.index t (1 : Fin 2) * 40 + 1 * (j 1).val = _; rw [e5]; omega)
  rw [hr, hw]

/-- An index of the result is in point t's block iff each coordinate is in the block's range on its axis. -/
theorem mem_blk (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v45).slice (win2_2.rect t)).set ↔ _
  rw [View.set_slice_whole, Rect.mem_set_unit]
  exact Iff.rfl

/-- The result array after the region: `mm40` of the two operand arrays as the region finds them. -/
theorem value (c : Dev nD) : (dat2 V c).arrAt 2 cfg2.N = mm40 (V c main_v44) (V c main_arg4) :=
  (dat2 V c).arrAt_eq_of_cover 2 _ (fun t _ => flushed_eq V c t) fun i => by
    have hi0 : (i 0).val < 50000 := (i 0).isLt
    have hi1 : (i 1).val < 40 := (i 1).isLt
    have hN : cfg2.N = 10 := N_2
    refine ⟨⟨(i 0).val / 5000, by rw [hN]; omega⟩, flush2_2 _, ?_⟩
    rw [mem_blk]
    obtain ⟨-, -, -, -, e4, e5⟩ := idx_facts ⟨(i 0).val / 5000, by rw [hN]; omega⟩
    intro a
    match a with
    | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
    | ⟨1, _⟩ => show win2_2.index _ (1 : Fin 2) * 40 ≤ (i 1).val ∧ (i 1).val < win2_2.index _ (1 : Fin 2) * 40 + 40; rw [e5]; omega

end Cert.Gcn.Region2

end
-- ==== Proof.Region3.lean ====
/-
  The last bias step, read off the kernel's run: what the ten grid points of the fourth kernel leave in its result array.
  Point t loads rows 5000·t … of its first operand and the whole bias row, adds the bias row to every row of the block,
  and stores that as rows 5000·t … of the result. Entry (r, j) of a block's result depends on the block's entry (r, j)
  and the bias entry j only, and the block's row r is the array's row 5000·t + r: every block is the corresponding block
  of `withBias40` of the two arrays, the ten blocks cover the result, and the result array ends holding `withBias40` of
  the two arrays as the kernel finds them.
-/
import proofs.«100879_j5342939316758_1_alg».proof.Proof.Gen.KernelIdeal.Frame
import proofs.«100879_j5342939316758_1_alg».proof.Proof.Spec
import Idealize.ShloMosaic.Lib.Pipeline.Value
import Idealize.ShloMosaic.Lib.ValueIdx

noncomputable section

namespace Cert.Gcn.Region3

open Idealize.ShloMosaic Idealize.ShloMosaic.TcCoe Idealize.SL.Sem
open Idealize.ShloMosaic.Pipeline (Dat)
open Cert.KernelIdeal Cert.KernelIdeal.Gen Cert.KernelIdeal.Facts₀

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The bias entry under column of `j`. -/
abbrev bBias (j : S5000x40.Idx) : S40.Idx := fun a => match a with
  | ⟨0, _⟩ => ⟨(j 1).val, (j 1).isLt⟩
/-- The same entry in the bias viewed as one row. -/
abbrev bBiasRow (j : S5000x40.Idx) : S1x40.Idx := fun a => match a with
  | ⟨0, _⟩ => ⟨0, Nat.one_pos⟩
  | ⟨1, _⟩ => ⟨(j 1).val, (j 1).isLt⟩

/-- The bias viewed as one row and repeated down the block reads, at (r, j), the bias entry j. -/
theorem bias_apply (x1 : Vec F S40 .f32) (j : S5000x40.Idx) :
    broadcastTo S5000x40 (shapeCast S1x40 x1 Facts₀.shapeCasts_S40_S1x40) Facts₀.broadcasts_S1x40_S5000x40 j = x1 (bBias j) := by
  refine (broadcastTo_apply _ Facts₀.broadcasts_S1x40_S5000x40 j (bBiasRow j) (fun a => match a with
    | ⟨0, _⟩ => by show 0 = if (1 : Nat) = 1 then 0 else _; rw [if_pos rfl]
    | ⟨1, _⟩ => by show (j 1).val = if (40 : Nat) = 1 then 0 else _; rw [if_neg (by decide)]; rfl)).trans ?_
  refine shapeCast_apply x1 Facts₀.shapeCasts_S40_S1x40 (bBiasRow j) (bBias j) ?_
  rw [Shape.rowMajor_val_one, Shape.rowMajor_val_two]
  show (j 1).val = 0 * 40 + (j 1).val
  omega

/-- One entry of what a point stores: the block's entry plus the bias entry of its column. -/
theorem pay_apply (x0 : Vec F S5000x40 .f32) (x1 : Vec F S40 .f32) (j : S5000x40.Idx) :
    k3_pay1 x0 x1 j = FloatOps.addf (x0 j) (x1 (bBias j)) := by
  unfold k3_pay1
  show FloatOps.addf (shapeCast S5000x40 x0 Facts₀.shapeCasts_S5000x40_S5000x40 j)
    (broadcastTo S5000x40 (shapeCast S1x40 x1 Facts₀.shapeCasts_S40_S1x40) Facts₀.broadcasts_S1x40_S5000x40 j) = _
  rw [shapeCast_self, bias_apply]

/-- The index maps over the ten points: the row operand and the result move with the point, the bias stays. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- Row r of the row operand's block at point t is row 5000·t + r of the array. -/
theorem read_rows (c : Dev nD) (t : Fin cfg3.N) (y : S5000x40.Idx) (i : S50000x40.Idx)
    (h0 : (i 0).val = t.val * 5000 + (y 0).val) (h1 : (i 1).val = (y 1).val) :
    (iblk3 V c 0 t : Vec F S5000x40 .f32) y = (V c main_v58 : S50000x40.Idx → Elt F .f32) i := by
  obtain ⟨e0, e1, -, -, -⟩ := idx_facts t
  unfold iblk3
  rw [View.read_apply]
  show V c main_v58 (((cfg3.win 0).blk t).view.emb y) = V c main_v58 i
  refine congrArg _ (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 40 + 1 * (y 1).val = (i 1).val; rw [e1, h1]; omega

/-- The bias operand's one block is the whole bias. -/
theorem read_bias (c : Dev nD) (t : Fin cfg3.N) (y : S40.Idx) (i : S40.Idx) (h0 : (i 0).val = (y 0).val) :
    (iblk3 V c 1 t : Vec F S40 .f32) y = (V c main_arg5 : S40.Idx → Elt F .f32) i := by
  obtain ⟨-, -, e2, -, -⟩ := idx_facts t
  unfold iblk3
  rw [View.read_apply]
  show V c main_arg5 (((cfg3.win 1).blk t).view.emb y) = V c main_arg5 i
  refine congrArg _ (funext fun a => Fin.ext ?_)
  match a with
  | ⟨0, _⟩ => show win3_1.index t (0 : Fin 1) * 40 + 1 * (y 0).val = (i 0).val; rw [e2, h0]; omega

/-- What point t writes back is block t of `withBias40` of the two arrays. -/
theorem flushed_eq (c : Dev nD) (t : Fin cfg3.N) :
    (dat3 V c).flushed 2 t = ((cfg3.win 2).blk t).view.read (Elt F) (withBias40 (V c main_v58) (V c main_arg5)) := by
  obtain ⟨-, -, -, e3, e4⟩ := idx_facts t
  show (cfg3.win 2).cut (grid3.coords t) ((dat3 V c).after 2 t) = _
  rw [after3_2]
  unfold out3_2
  rw [View.canon_unit_zero hz]
  simp only [View.ld_unit_zero (S := S5000x40) hz, View.ld_unit_zero (S := S40) hz1]
  funext j
  show k3_pay1 (iblk3 V c 0 t) (iblk3 V c 1 t) j = withBias40 (V c main_v58) (V c main_arg5) (((cfg3.win 2).blk t).view.emb j)
  refine (pay_apply (iblk3 V c 0 t) (iblk3 V c 1 t) j).trans ?_
  unfold withBias40
  have hr : (iblk3 V c 0 t : Vec F S5000x40 .f32) j = (V c main_v58 : S50000x40.Idx → Elt F .f32) (((cfg3.win 2).blk t).view.emb j) :=
    read_rows V c t j _
      (by show win3_2.index t (0 : Fin 2) * 5000 + 1 * (j 0).val = _; rw [e3]; omega)
      (by show win3_2.index t (1 : Fin 2) * 40 + 1 * (j 1).val = _; rw [e4]; omega)
  have hb : (iblk3 V c 1 t : Vec F S40 .f32) (bBias j) = (V c main_arg5 : S40.Idx → Elt F .f32) (biasAt40 (((cfg3.win 2).blk t).view.emb j)) :=
    read_bias V c t (bBias j) _
      (by show (((cfg3.win 2).blk t).view.emb j 1).val = (j 1).val
          show win3_2.index t (1 : Fin 2) * 40 + 1 * (j 1).val = (j 1).val; rw [e4]; omega)
  rw [hr, hb]

/-- An index of the result is in point t's block iff each coordinate is in the block's range on its axis. -/
theorem mem_blk (t : Fin cfg3.N) (i : S50000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v59).slice (win3_2.rect t)).set ↔ _
  rw [View.set_slice_whole, Rect.mem_set_unit]
  exact Iff.rfl

/-- The result array after the region: `withBias40` of the two operand arrays as the region finds them. -/
theorem value (c : Dev nD) : (dat3 V c).arrAt 2 cfg3.N = withBias40 (V c main_v58) (V c main_arg5) :=
  (dat3 V c).arrAt_eq_of_cover 2 _ (fun t _ => flushed_eq V c t) fun i => by
    have hi0 : (i 0).val < 50000 := (i 0).isLt
    have hi1 : (i 1).val < 40 := (i 1).isLt
    have hN : cfg3.N = 10 := N_3
    refine ⟨⟨(i 0).val / 5000, by rw [hN]; omega⟩, flush3_2 _, ?_⟩
    rw [mem_blk]
    obtain ⟨-, -, -, e3, e4⟩ := idx_facts ⟨(i 0).val / 5000, by rw [hN]; omega⟩
    intro a
    match a with
    | ⟨0, _⟩ => show win3_2.index _ (0 : Fin 2) * 5000 ≤ (i 0).val ∧ (i 0).val < win3_2.index _ (0 : Fin 2) * 5000 + 5000; rw [e3]; show (i 0).val / 5000 * 5000 ≤ (i 0).val ∧ (i 0).val < (i 0).val / 5000 * 5000 + 5000; omega
    | ⟨1, _⟩ => show win3_2.index _ (1 : Fin 2) * 40 ≤ (i 1).val ∧ (i 1).val < win3_2.index _ (1 : Fin 2) * 40 + 40; rw [e4]; omega

end Cert.Gcn.Region3

end
-- ==== Proof.Chain.lean ====
/-
  The idealized kernel program's result as one function of its arguments: the contents of the result buffer at the last
  segment boundary, walked back through the four kernels and the host operations between them. The fourth kernel leaves
  `withBias40` of the second aggregation and the second bias; the second aggregation is `aggr40` of the third kernel's
  product; that product is `mm40` of the second kernel's result and the second weight matrix; the second kernel leaves
  `hidden` of the first aggregation and the first bias; the first aggregation is `aggr128` of the first kernel's product,
  which is `mm128` of the node features and the first weight matrix — the edge lists and weights the same at both
  aggregations. Together: `gcnOut` of the six arguments.
-/
import proofs.«100879_j5342939316758_1_alg».proof.Proof.Gen.KernelIdeal.Frame
import proofs.«100879_j5342939316758_1_alg».proof.Proof.Spec
import proofs.«100879_j5342939316758_1_alg».proof.Proof.HostPre
import proofs.«100879_j5342939316758_1_alg».proof.Proof.HostSteps
import proofs.«100879_j5342939316758_1_alg».proof.Proof.Region0
import proofs.«100879_j5342939316758_1_alg».proof.Proof.Region1
import proofs.«100879_j5342939316758_1_alg».proof.Proof.Region2
import proofs.«100879_j5342939316758_1_alg».proof.Proof.Region3

noncomputable section

namespace Cert.Gcn.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first kernel's product. -/
theorem xw1 (c : Dev nD) : W4 m ρ c (Proc.devRef .tc main_v30)
    = mm128 (m ((c : Thread nD τ).loc main_arg0)) (m ((c : Thread nD τ).loc main_arg2)) := by
  have h := (W4_arr m ρ c 2).trans (Region0.value (V3 m ρ) c)
  have h0 : V3 m ρ c main_arg0 = m ((c : Thread nD τ).loc main_arg0) := HostPre.arg0_eq m ρ c
  have h2 : V3 m ρ c main_arg2 = m ((c : Thread nD τ).loc main_arg2) := HostPre.arg2_eq m ρ c
  rw [h0, h2] at h
  exact h

/-- The second kernel's result: the first layer. -/
theorem layer1 (c : Dev nD) : W6 m ρ c (Proc.devRef .tc main_v44)
    = hidden (aggr128 (mm128 (m ((c : Thread nD τ).loc main_arg0)) (m ((c : Thread nD τ).loc main_arg2)))
        (srcOf (m ((c : Thread nD τ).loc main_arg1))) (dstOf (m ((c : Thread nD τ).loc main_arg1)))
        (normOf (F := Ideal) (srcOf (m ((c : Thread nD τ).loc main_arg1))) (dstOf (m ((c : Thread nD τ).loc main_arg1)))))
      (m ((c : Thread nD τ).loc main_arg3)) := by
  have h := (W6_arr m ρ c 2).trans (Region1.value (V5 m ρ) c)
  have h43 : V5 m ρ c main_v43 = _ := HostSteps.agg1 m ρ c
  have hb : V5 m ρ c main_arg3 = m ((c : Thread nD τ).loc main_arg3) := HostSteps.arg3_5 m ρ c
  rw [h43, hb, xw1 m ρ c, HostSteps.src4 m ρ c, HostSteps.dst4 m ρ c, HostSteps.norm4 m ρ c] at h
  exact h

/-- The third kernel's product. -/
theorem xw2 (c : Dev nD) : W7 m ρ c (Proc.devRef .tc main_v45)
    = mm40 (hidden (aggr128 (mm128 (m ((c : Thread nD τ).loc main_arg0)) (m ((c : Thread nD τ).loc main_arg2)))
        (srcOf (m ((c : Thread nD τ).loc main_arg1))) (dstOf (m ((c : Thread nD τ).loc main_arg1)))
        (normOf (F := Ideal) (srcOf (m ((c : Thread nD τ).loc main_arg1))) (dstOf (m ((c : Thread nD τ).loc main_arg1)))))
      (m ((c : Thread nD τ).loc main_arg3))) (m ((c : Thread nD τ).loc main_arg4)) := by
  have h := (W7_arr m ρ c 2).trans (Region2.value (V6 m ρ) c)
  have h44 : V6 m ρ c main_v44 = _ := layer1 m ρ c
  have hw : V6 m ρ c main_arg4 = m ((c : Thread nD τ).loc main_arg4) := HostSteps.arg4_6 m ρ c
  rw [h44, hw] at h
  exact h

/-- The result buffer at the last boundary: both layers. -/
theorem out_eq (c : Dev nD) : W9 m ρ c (Proc.devRef .tc main_v59)
    = gcnOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have h := (W9_arr m ρ c 2).trans (Region3.value (V8 m ρ) c)
  have h58 : V8 m ρ c main_v58 = _ := HostSteps.agg2 m ρ c
  have hb : V8 m ρ c main_arg5 = m ((c : Thread nD τ).loc main_arg5) := HostSteps.arg5_8 m ρ c
  rw [h58, hb, xw2 m ρ c, HostSteps.src7 m ρ c, HostSteps.dst7 m ρ c, HostSteps.norm7 m ρ c] at h
  exact h

end Cert.Gcn.Chain

end
-- ==== Proof.lean ====
/-
  The certificate of a two-layer graph convolution: a program of four kernels (two dense products and two bias steps,
  each over ten row blocks) among host operations (self loops, degrees and edge weights, two gather / scale / scatter-add
  aggregations) against a reference that does everything on the host.
  The three frames: the two kernel programs' are the generated frame certificates; the reference's is its run with the
  result dropped. Nothing was rewritten when the kernel was idealized, so that conjunct is trivial. The value claim:
  at the extended reals both programs end with `Cert.Gcn.gcnOut` of the six arguments in the result buffer — the
  kernel program's result read through its four kernels and the host operations between them (Proof/Chain.lean over
  Proof/Region0 … Region3, Proof/HostPre, Proof/HostSteps and the run Proof/KernelRun), the reference's run term
  rewritten to the same function (Proof/RefValue.lean over the run Proof/RefRun). The gather and scatter-add steps are
  the same functions on both sides, applied to values shown equal; a dense product is the same sum of products on both
  sides, a narrowing of a product's operands being the identity on the extended reals; no law of arithmetic beyond that
  is used, and the precondition is not needed.
-/
import proofs.«100879_j5342939316758_1_alg».proof.Defs
import proofs.«100879_j5342939316758_1_alg».proof.Proof.Gen.Kernel
import proofs.«100879_j5342939316758_1_alg».proof.Proof.Gen.Kernel.Frame
import proofs.«100879_j5342939316758_1_alg».proof.Proof.Gen.KernelIdeal
import proofs.«100879_j5342939316758_1_alg».proof.Proof.Gen.KernelIdeal.Frame
import proofs.«100879_j5342939316758_1_alg».proof.Proof.Gen.ReferenceIdeal
import proofs.«100879_j5342939316758_1_alg».proof.Proof.Gen.Pre_finite_inputs
import proofs.«100879_j5342939316758_1_alg».proof.Proof.RefRun
import proofs.«100879_j5342939316758_1_alg».proof.Proof.RefValue
import proofs.«100879_j5342939316758_1_alg».proof.Proof.KernelRun
import proofs.«100879_j5342939316758_1_alg».proof.Proof.Chain

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten when the kernel program was idealized. -/
theorem preserves : Cert.preserves_Kernel_KernelIdeal := trivial

/-- Both idealized programs end with `gcnOut` of the arguments in the result buffer, the arguments unchanged. -/
theorem algebraic : Cert.algebraic_KernelIdeal_ReferenceIdeal := by
  intro m ρ m' ρ' _ hagree
  refine ⟨fun c => Cert.Gcn.gcnOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.Gcn.Chain.out_eq m ρ c), (h c).2⟩)
      (Cert.Gcn.KernelRun.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.Gcn.RefSide.res_eq m' c, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
